-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel

variable [Facts]

def fn {F : FTy → Type} [FloatOps F] (main_arg0 : FVec F S64x512x512 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  main_v3
-- ==== Kernel.lean ====
abbrev S64x512x512 : Shape := ⟨3, ![64, 512, 512]⟩
abbrev S16384x1024 : Shape := ⟨2, ![16384, 1024]⟩
abbrev S16384x256 : Shape := ⟨2, ![16384, 256]⟩
abbrev S1024x1024 : Shape := ⟨2, ![1024, 1024]⟩
abbrev S1024x256 : Shape := ⟨2, ![1024, 256]⟩
abbrev S256x128 : Shape := ⟨2, ![256, 128]⟩
abbrev S256x1024 : Shape := ⟨2, ![256, 1024]⟩
abbrev S256x512 : Shape := ⟨2, ![256, 512]⟩
abbrev S256x128x1 : Shape := ⟨3, ![256, 128, 1]⟩
abbrev S256x64 : Shape := ⟨2, ![256, 64]⟩
abbrev S256x256 : Shape := ⟨2, ![256, 256]⟩
abbrev S64x256x256 : Shape := ⟨3, ![64, 256, 256]⟩

abbrev nBuf : Space → Nat
  | .hbm => 4
  | .vmem => 4
  | .smem => 0
  | _ => 0

abbrev bufTy : (tb : Table) → Fin (tcTables nBuf tb) → BufTy
  | .hbm, ⟨0, _⟩ => ⟨S64x512x512, .f32⟩
  | .hbm, ⟨1, _⟩ => ⟨S16384x1024, .f32⟩
  | .hbm, ⟨2, _⟩ => ⟨S16384x256, .f32⟩
  | .hbm, ⟨3, _⟩ => ⟨S64x256x256, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S64x512x512_S16384x1024 : S64x512x512.ShapeCasts S16384x1024
  iota_S256x128_d1_w32 : S256x128.Iotas .tc 32 [1]
  inb_S1024x1024_S256x1024_0_0 : ∀ a, (![0, 0] : Fin 2 → Nat) a + S256x1024.size a ≤ S1024x1024.size a
  h_S256x1024 : 0 < S256x1024.numel
  shapeCasts_S256x1024_S256x1024 : S256x1024.ShapeCasts S256x1024
  slices_S256x1024_o0_0_S256x512 : S256x1024.Slices ![0, 0] S256x512
  slices_S256x512_o0_0_S256x128 : S256x512.Slices ![0, 0] S256x128
  shapeCasts_S256x128_S256x128x1 : S256x128.ShapeCasts S256x128x1
  shapeCasts_S256x128x1_S256x128 : S256x128x1.ShapeCasts S256x128
  slices_S256x512_o0_128_S256x128 : S256x512.Slices ![0, 128] S256x128
  slices_S256x128_o0_0_S256x64 : S256x128.Slices ![0, 0] S256x64
  concatenates_S256x64_S256x64_S256x128_d1 : Shape.Concatenates [S256x64, S256x64] S256x128 1
  slices_S256x128_o0_64_S256x64 : S256x128.Slices ![0, 64] S256x64
  slices_S256x512_o0_256_S256x128 : S256x512.Slices ![0, 256] S256x128
  slices_S256x512_o0_384_S256x128 : S256x512.Slices ![0, 384] S256x128
  concatenates_S256x128_S256x128_S256x256_d1 : Shape.Concatenates [S256x128, S256x128] S256x256 1
  slices_S256x1024_o0_512_S256x512 : S256x1024.Slices ![0, 512] S256x512
  inb_S1024x256_S256x256_0_0 : ∀ a, (![0, 0] : Fin 2 → Nat) a + S256x256.size a ≤ S1024x256.size a
  h_S256x256 : 0 < S256x256.numel
  inb_S1024x1024_S256x1024_256_0 : ∀ a, (![256, 0] : Fin 2 → Nat) a + S256x1024.size a ≤ S1024x1024.size a
  inb_S1024x256_S256x256_256_0 : ∀ a, (![256, 0] : Fin 2 → Nat) a + S256x256.size a ≤ S1024x256.size a
  inb_S1024x1024_S256x1024_512_0 : ∀ a, (![512, 0] : Fin 2 → Nat) a + S256x1024.size a ≤ S1024x1024.size a
  inb_S1024x256_S256x256_512_0 : ∀ a, (![512, 0] : Fin 2 → Nat) a + S256x256.size a ≤ S1024x256.size a
  inb_S1024x1024_S256x1024_768_0 : ∀ a, (![768, 0] : Fin 2 → Nat) a + S256x1024.size a ≤ S1024x1024.size a
  inb_S1024x256_S256x256_768_0 : ∀ a, (![768, 0] : Fin 2 → Nat) a + S256x256.size a ≤ S1024x256.size a
  shapeCasts_S16384x256_S64x256x256 : S16384x256.ShapeCasts S64x256x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S16384x256.size a
  hwx0_1 : ∀ i : grid0.Coords, EltTy.bits .f32 = 32 ∨ (Rect.block (s := S16384x256) S1024x256.size (cc0_transform_1 i) (hinb0_1 i)).WholeWords (EltTy.packing .f32)

variable [Facts₀]

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S64x256x2x256x2 : Shape := ⟨5, ![64, 256, 2, 256, 2]⟩
abbrev S64x256x256x2x2 : Shape := ⟨5, ![64, 256, 256, 2, 2]⟩
abbrev S64x256x256x4 : Shape := ⟨4, ![64, 256, 256, 4]⟩
abbrev S64x256x256x1 : Shape := ⟨4, ![64, 256, 256, 1]⟩
abbrev S64x256x256 : Shape := ⟨3, ![64, 256, 256]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S64x512x512, .f32⟩
  | .hbm, ⟨1, _⟩ => ⟨S64x256x2x256x2, .f32⟩
  | .hbm, ⟨2, _⟩ => ⟨S64x256x256x2x2, .f32⟩
  | .hbm, ⟨3, _⟩ => ⟨S64x256x256x4, .f32⟩
  | .hbm, ⟨4, _⟩ => ⟨S64x256x256x1, .f32⟩
  | .hbm, ⟨5, _⟩ => ⟨S64x256x256, .f32⟩
  | .hbm, ⟨6, _⟩ => ⟨S64x256x256x1, .f32⟩
  | .hbm, ⟨7, _⟩ => ⟨S64x256x256, .f32⟩
  | .hbm, ⟨8, _⟩ => ⟨S64x256x256, .f32⟩
  | .hbm, ⟨9, _⟩ => ⟨S_, .f32⟩
  | .hbm, ⟨10, _⟩ => ⟨S64x256x256, .f32⟩
  | .hbm, ⟨11, _⟩ => ⟨S64x256x256, .f32⟩
  | .hbm, ⟨12, _⟩ => ⟨S_, .f32⟩
  | .hbm, ⟨13, _⟩ => ⟨S64x256x256, .f32⟩
  | .hbm, ⟨14, _⟩ => ⟨S64x256x256, .f32⟩
  | .hbm, ⟨15, _⟩ => ⟨S64x256x256, .f32⟩
  | .hbm, ⟨16, _⟩ => ⟨S_, .f32⟩
  | .hbm, ⟨17, _⟩ => ⟨S64x256x256, .f32⟩
  | .hbm, ⟨18, _⟩ => ⟨S64x256x256, .f32⟩
  | .hbm, ⟨19, _⟩ => ⟨S64x256x256x1, .f32⟩
  | .hbm, ⟨20, _⟩ => ⟨S64x256x256, .f32⟩
  | .hbm, ⟨21, _⟩ => ⟨S64x256x256x1, .f32⟩
  | .hbm, ⟨22, _⟩ => ⟨S64x256x256, .f32⟩
  | .hbm, ⟨23, _⟩ => ⟨S64x256x256, .f32⟩
  | .hbm, ⟨24, _⟩ => ⟨S_, .f32⟩
  | .hbm, ⟨25, _⟩ => ⟨S64x256x256, .f32⟩
  | .hbm, ⟨26, _⟩ => ⟨S64x256x256, .f32⟩
  | .hbm, ⟨27, _⟩ => ⟨S_, .f32⟩
  | .hbm, ⟨28, _⟩ => ⟨S64x256x256, .f32⟩
  | .hbm, ⟨29, _⟩ => ⟨S64x256x256, .f32⟩
  | .hbm, ⟨30, _⟩ => ⟨S64x256x256, .f32⟩
  | .hbm, ⟨31, _⟩ => ⟨S_, .f32⟩
  | .hbm, ⟨32, _⟩ => ⟨S64x256x256, .f32⟩
  | .hbm, ⟨33, _⟩ => ⟨S64x256x256, .f32⟩
  | .hbm, ⟨34, _⟩ => ⟨S64x256x256, .f32⟩
  | .hbm, ⟨35, _⟩ => ⟨S_, .f32⟩
  | .hbm, ⟨36, _⟩ => ⟨S64x256x256, .f32⟩
  | .hbm, ⟨37, _⟩ => ⟨S64x256x256, .f32⟩
  | .hbm, ⟨38, _⟩ => ⟨S_, .f32⟩
  | .hbm, ⟨39, _⟩ => ⟨S64x256x256, .f32⟩
  | .hbm, ⟨40, _⟩ => ⟨S64x256x256, .f32⟩
  | .hbm, ⟨41, _⟩ => ⟨S64x256x256, .f32⟩
  | .hbm, ⟨42, _⟩ => ⟨S_, .f32⟩
  | .hbm, ⟨43, _⟩ => ⟨S64x256x256, .f32⟩
  | .hbm, ⟨44, _⟩ => ⟨S64x256x256, .f32⟩
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_call0_cst : Ref sig .tc := ⟨.hbm, 9, rfl⟩
abbrev main_call0_v0 : Ref sig .tc := ⟨.hbm, 10, rfl⟩
abbrev main_v8 : Ref sig .tc := ⟨.hbm, 11, rfl⟩
abbrev main_call1_cst : Ref sig .tc := ⟨.hbm, 12, rfl⟩
abbrev main_call1_v0 : Ref sig .tc := ⟨.hbm, 13, rfl⟩
abbrev main_v9 : Ref sig .tc := ⟨.hbm, 14, rfl⟩
abbrev main_v10 : Ref sig .tc := ⟨.hbm, 15, rfl⟩
abbrev main_call2_cst : Ref sig .tc := ⟨.hbm, 16, rfl⟩
abbrev main_call2_v0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_call3_cst : Ref sig .tc := ⟨.hbm, 24, rfl⟩
abbrev main_call3_v0 : Ref sig .tc := ⟨.hbm, 25, rfl⟩
abbrev main_v17 : Ref sig .tc := ⟨.hbm, 26, rfl⟩
abbrev main_call4_cst : Ref sig .tc := ⟨.hbm, 27, rfl⟩
abbrev main_call4_v0 : Ref sig .tc := ⟨.hbm, 28, rfl⟩
abbrev main_v18 : Ref sig .tc := ⟨.hbm, 29, rfl⟩
abbrev main_v19 : Ref sig .tc := ⟨.hbm, 30, rfl⟩
abbrev main_call5_cst : Ref sig .tc := ⟨.hbm, 31, rfl⟩
abbrev main_call5_v0 : Ref sig .tc := ⟨.hbm, 32, rfl⟩
abbrev main_v20 : Ref sig .tc := ⟨.hbm, 33, rfl⟩
abbrev main_v21 : Ref sig .tc := ⟨.hbm, 34, rfl⟩
abbrev main_call6_cst : Ref sig .tc := ⟨.hbm, 35, rfl⟩
abbrev main_call6_v0 : Ref sig .tc := ⟨.hbm, 36, rfl⟩
abbrev main_v22 : Ref sig .tc := ⟨.hbm, 37, rfl⟩
abbrev main_call7_cst : Ref sig .tc := ⟨.hbm, 38, rfl⟩
abbrev main_call7_v0 : Ref sig .tc := ⟨.hbm, 39, rfl⟩
abbrev main_v23 : Ref sig .tc := ⟨.hbm, 40, rfl⟩
abbrev main_v24 : Ref sig .tc := ⟨.hbm, 41, rfl⟩
abbrev main_call8_cst : Ref sig .tc := ⟨.hbm, 42, rfl⟩
abbrev main_call8_v0 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  shapeCasts_S64x512x512_S64x256x2x256x2 : S64x512x512.ShapeCasts S64x256x2x256x2
  transposes_S64x256x2x256x2_S64x256x256x2x2_0_1_3_2_4 : S64x256x2x256x2.Transposes [0, 1, 3, 2, 4] S64x256x256x2x2
  shapeCasts_S64x256x256x2x2_S64x256x256x4 : S64x256x256x2x2.ShapeCasts S64x256x256x4
  slices_S64x256x256x4_S64x256x256x1_0_0_0_0 : S64x256x256x4.Slices ![0, 0, 0, 0] S64x256x256x1
  shapeCasts_S64x256x256x1_S64x256x256 : S64x256x256x1.ShapeCasts S64x256x256
  slices_S64x256x256x4_S64x256x256x1_0_0_0_1 : S64x256x256x4.Slices ![0, 0, 0, 1] S64x256x256x1
  bcast_S_S64x256x256 : S_.BroadcastsInDim S64x256x256 (![] : Fin 0 → Fin S64x256x256.rank)
  slices_S64x256x256x4_S64x256x256x1_0_0_0_2 : S64x256x256x4.Slices ![0, 0, 0, 2] S64x256x256x1
  slices_S64x256x256x4_S64x256x256x1_0_0_0_3 : S64x256x256x4.Slices ![0, 0, 0, 3] S64x256x256x1

variable [Facts₀]

class Facts : Prop extends Facts₀ where

variable [Facts]
-- ==== Proof.LibLaneRead.lean ====
/-
  Rank-two arrays read at an index given by its two coordinates, for three operations that move data along the
  columns: two arrays laid side by side (read in the left or in the right one), and a gather along the columns, which
  reads, in the same row, the column its index word names (taken modulo the row's length).
-/
import Idealize.ShloMosaic.Lib.ValueLayout
import Idealize.ShloMosaic.Lib.Pipeline.Value
import Idealize.ShloMosaic.Lib.ValueIdx

namespace Cert.LaneRead

open Idealize.ShloMosaic Idealize.ShloMosaic.ValueIdx

variable {α : Type}

/-- Two arrays with the same rows laid side by side: a column left of the seam reads the left array there. -/
theorem concat_cols_left {n b1 b2 b : Nat} (x1 : (⟨2, ![n, b1]⟩ : Shape).Idx → α) (x2 : (⟨2, ![n, b2]⟩ : Shape).Idx → α)
    (h : Shape.Concatenates [⟨2, ![n, b1]⟩, ⟨2, ![n, b2]⟩] ⟨2, ![n, b]⟩ 1) (r : Fin n) (c : Fin b) (hc : c.val < b1) :
    concatenate ⟨2, ![n, b]⟩ 1 [⟨⟨2, ![n, b1]⟩, x1⟩, ⟨⟨2, ![n, b2]⟩, x2⟩] h (ix2 r c) = x1 (ix2 r ⟨c.val, hc⟩) :=
  concatenate_pair_apply_left (1 : Fin 2) x1 x2 h (ix2 r c) rfl (ix2 r ⟨c.val, hc⟩)
    (fun d => match d with | ⟨0, _⟩ => rfl | ⟨1, _⟩ => rfl)

/-- A column at or right of the seam reads the right array, the left array's width less. -/
theorem concat_cols_right {n b1 b2 b : Nat} (x1 : (⟨2, ![n, b1]⟩ : Shape).Idx → α) (x2 : (⟨2, ![n, b2]⟩ : Shape).Idx → α)
    (h : Shape.Concatenates [⟨2, ![n, b1]⟩, ⟨2, ![n, b2]⟩] ⟨2, ![n, b]⟩ 1) (r : Fin n) (c : Fin b) (hc : b1 ≤ c.val)
    (hc2 : c.val - b1 < b2) :
    concatenate ⟨2, ![n, b]⟩ 1 [⟨⟨2, ![n, b1]⟩, x1⟩, ⟨⟨2, ![n, b2]⟩, x2⟩] h (ix2 r c) = x2 (ix2 r ⟨c.val - b1, hc2⟩) :=
  concatenate_pair_apply_right (1 : Fin 2) x1 x2 h (ix2 r c) rfl rfl (ix2 r ⟨c.val - b1, hc2⟩)
    (fun d hd => match d, hd with | ⟨0, _⟩, _ => rfl | ⟨1, _⟩, hd => absurd rfl hd)
    (by show c.val - b1 + b1 = c.val; omega)

/-- A gather along the columns reads, in the same row, the column the index word names modulo the row's length. -/
theorem gather_cols {n b : Nat} (x : (⟨2, ![n, b]⟩ : Shape).Idx → α) (idx : IVec ⟨2, ![n, b]⟩ 32) (r : Fin n) (c k : Fin b)
    (hk : k.val = (idx (ix2 r c)).toNat % b) :
    dynamicGather (s := ⟨2, ![n, b]⟩) (1 : Fin 2) x idx (ix2 r c) = x (ix2 r k) := by
  unfold dynamicGather
  refine congrArg x (funext fun d => ?_)
  match d with
  | ⟨0, _⟩ => rfl
  | ⟨1, _⟩ => exact Fin.ext hk.symm

end Cert.LaneRead
-- ==== Proof.Spec.lean ====
/-
  The result, as one function of the image. For an image x of 64 channels, 512 rows and 512 columns, entry
  (ch, oh, ow) of the result is the pairwise network  pm a b = max (a - b) 0 + max b 0  applied as a tournament on
  the two-by-two window at rows 2 oh, 2 oh + 1 and columns 2 ow, 2 ow + 1: first to the two entries of each row, then
  to the two rows' results. On the extended reals pm a b is a sum of two numbers that are at least 0, so taking its
  maximum with 0 once more changes nothing.
-/
import Idealize.ShloMosaic.PureOps.Ideal
import Idealize.ShloMosaic.PureOps.Ideal.Laws
import Idealize.ShloMosaic.Lib.ValueIdx

noncomputable section

namespace Cert.PoolSpec

open Idealize.ShloMosaic Idealize.ShloMosaic.ValueIdx

variable {F : FTy → Type} [FloatOps F]

/-- The pairwise network on two numbers. -/
def pm (a b : F .f32) : F .f32 :=
  FloatOps.addf (FloatOps.maximumf (FloatOps.subf a b) (Scalar.ofBits .f32 0x00000000#32)) (FloatOps.maximumf b (Scalar.ofBits .f32 0x00000000#32))

/-- The tournament on each two-by-two window. -/
def poolG (x : (⟨3, ![64, 512, 512]⟩ : Shape).Idx → F .f32) : (⟨3, ![64, 256, 256]⟩ : Shape).Idx → F .f32 := fun i =>
  pm (pm (x (ix3 (i 0) ⟨2 * (i 1).val, by have h : (i 1).val < 256 := (i 1).isLt; omega⟩ ⟨2 * (i 2).val, by have h : (i 2).val < 256 := (i 2).isLt; omega⟩))
         (x (ix3 (i 0) ⟨2 * (i 1).val, by have h : (i 1).val < 256 := (i 1).isLt; omega⟩ ⟨2 * (i 2).val + 1, by have h : (i 2).val < 256 := (i 2).isLt; omega⟩)))
     (pm (x (ix3 (i 0) ⟨2 * (i 1).val + 1, by have h : (i 1).val < 256 := (i 1).isLt; omega⟩ ⟨2 * (i 2).val, by have h : (i 2).val < 256 := (i 2).isLt; omega⟩))
         (x (ix3 (i 0) ⟨2 * (i 1).val + 1, by have h : (i 1).val < 256 := (i 1).isLt; omega⟩ ⟨2 * (i 2).val + 1, by have h : (i 2).val < 256 := (i 2).isLt; omega⟩)))

theorem poolG_apply (x : (⟨3, ![64, 512, 512]⟩ : Shape).Idx → F .f32) (ch : Fin 64) (oh ow : Fin 256) (r0 r1 c0 c1 : Fin 512)
    (hr0 : r0.val = 2 * oh.val) (hr1 : r1.val = 2 * oh.val + 1) (hc0 : c0.val = 2 * ow.val) (hc1 : c1.val = 2 * ow.val + 1) :
    poolG x (ix3 ch oh ow) = pm (pm (x (ix3 ch r0 c0)) (x (ix3 ch r0 c1))) (pm (x (ix3 ch r1 c0)) (x (ix3 ch r1 c1))) := by
  unfold poolG
  have e0 : (⟨2 * oh.val, by have := oh.isLt; omega⟩ : Fin 512) = r0 := Fin.ext hr0.symm
  have e1 : (⟨2 * oh.val + 1, by have := oh.isLt; omega⟩ : Fin 512) = r1 := Fin.ext hr1.symm
  have e2 : (⟨2 * ow.val, by have := ow.isLt; omega⟩ : Fin 512) = c0 := Fin.ext hc0.symm
  have e3 : (⟨2 * ow.val + 1, by have := ow.isLt; omega⟩ : Fin 512) = c1 := Fin.ext hc1.symm
  show pm (pm (x (ix3 ch ⟨2 * oh.val, _⟩ ⟨2 * ow.val, _⟩)) (x (ix3 ch ⟨2 * oh.val, _⟩ ⟨2 * ow.val + 1, _⟩)))
      (pm (x (ix3 ch ⟨2 * oh.val + 1, _⟩ ⟨2 * ow.val, _⟩)) (x (ix3 ch ⟨2 * oh.val + 1, _⟩ ⟨2 * ow.val + 1, _⟩))) = _
  rw [e0, e1, e2, e3]

/-- On the extended reals the network is max (a - b) 0 + max b 0. -/
theorem pm_ideal (a b : EReal) : pm (F := Ideal) a b = max (a - b) 0 + max b 0 := by
  unfold pm
  show max (a - b) (Ideal.ofBits .f32 0x00000000#32) + max b (Ideal.ofBits .f32 0x00000000#32) = _
  rw [Ideal.ofBits_zero_f32]

/-- A sum of two numbers that are at least 0 is its own maximum with 0. -/
theorem relu_sum (u w : EReal) : max (max u 0 + max w 0) 0 = max u 0 + max w 0 :=
  max_eq_left (add_nonneg (le_max_right _ _) (le_max_right _ _))

end Cert.PoolSpec

end
-- ==== Proof.SubGraph.lean ====
/-
  One quarter of a block: 256 rows of 1024 entries, each row an even image row followed by the next odd image row.
  The pairwise network  pm a b = max (a - b) 0 + max b 0  is applied first to neighbouring columns and then to the two
  image rows. Neighbouring columns are brought together by a gather along each 128-lane chunk: lane l < 64 takes the
  chunk's lane 2 l, lane l ≥ 64 takes lane 2 (l - 64) + 1, so the first 64 lanes hold the even columns and the last
  64 the odd ones. Two chunks' even halves side by side are the even columns of 256 consecutive entries, likewise the
  odd halves; the network of the two is the pairwise result for 128 column pairs.
  This module writes that computation as one function of the 256-by-1024 rows and reads it at an index: entry (r, q)
  is pm (pm (v r (2q)) (v r (2q+1))) (pm (v r (512+2q)) (v r (512+2q+1))).
-/
import proofs.«123821_g7490422964872_pilotgen1_124_14_alg».proof.Proof.Gen.KernelIdeal.Skeleton
import proofs.«123821_g7490422964872_pilotgen1_124_14_alg».proof.Proof.LibLaneRead
import proofs.«123821_g7490422964872_pilotgen1_124_14_alg».proof.Proof.Spec

noncomputable section

namespace Cert.KernelIdeal.Pool

open Idealize.ShloMosaic Idealize.ShloMosaic.ValueIdx Cert.KernelIdeal Cert.KernelIdeal.Gen Cert.LaneRead Cert.PoolSpec

variable {F : FTy → Type} [FloatOps F]

/-! ## The gather's index words -/

/-- The index word of a lane whose number is the word `i`: twice the lane below 64, twice the lane less 127 from 64
    on, and then 128 more if that came out negative (it never does). -/
def laneWord (i : BitVec 32) : BitVec 32 :=
  Scalar.select (IntOp.cmpi .slt (Scalar.select (IntOp.cmpi .slt i 64#32) (IntOp.muli 2#32 i) (IntOp.subi (IntOp.muli 2#32 i) 127#32)) 0#32)
    (IntOp.addi (Scalar.select (IntOp.cmpi .slt i 64#32) (IntOp.muli 2#32 i) (IntOp.subi (IntOp.muli 2#32 i) 127#32)) 128#32)
    (Scalar.select (IntOp.cmpi .slt i 64#32) (IntOp.muli 2#32 i) (IntOp.subi (IntOp.muli 2#32 i) 127#32))

/-- Lane by lane: the word names lane 2 l below 64 and lane 2 l - 127 from 64 on. -/
theorem laneWord_lane : ∀ l : Fin 128, (laneWord (BitVec.ofNat 32 l.val)).toNat % 128 = if l.val < 64 then 2 * l.val else 2 * l.val - 127 := by
  decide +kernel

/-- The index vector every gather of the body is given. -/
def laneIdx : IVec S256x128 32 :=
  shapeCast S256x128 (shapeCast S256x128x1 (select (cmpi .slt k0_pay2 (broadcast S256x128 0#32)) (addi k0_pay2 (broadcast S256x128 128#32)) k0_pay2) (by decide)) (by decide)

theorem laneIdx_apply (r : Fin 256) (l : Fin 128) : laneIdx (ix2 r l) = laneWord (BitVec.ofNat 32 l.val) := by
  unfold laneIdx
  rw [shapeCast_shapeCast]
  have e : k0_pay2 (ix2 r l) = Scalar.select (IntOp.cmpi .slt (BitVec.ofNat 32 l.val) 64#32) (IntOp.muli 2#32 (BitVec.ofNat 32 l.val)) (IntOp.subi (IntOp.muli 2#32 (BitVec.ofNat 32 l.val)) 127#32) := by
    unfold k0_pay2
    show Scalar.select (IntOp.cmpi .slt (iota .tc S256x128 32 [1] _ (ix2 r l)) 64#32) (IntOp.muli 2#32 (iota .tc S256x128 32 [1] _ (ix2 r l))) (IntOp.subi (IntOp.muli 2#32 (iota .tc S256x128 32 [1] _ (ix2 r l))) 127#32) = _
    rw [iota_single_apply]
  show Scalar.select (IntOp.cmpi .slt (k0_pay2 (ix2 r l)) 0#32) (IntOp.addi (k0_pay2 (ix2 r l)) 128#32) (k0_pay2 (ix2 r l)) = _
  rw [e]
  rfl

/-! ## The computation, as one function -/

/-- The pairwise network entry by entry. -/
def pairMax {s : Shape} (a b : FVec F s .f32) : FVec F s .f32 :=
  addf (maximumf (subf a b) (broadcast s (Scalar.ofBits .f32 0x00000000#32))) (maximumf b (broadcast s (Scalar.ofBits .f32 0x00000000#32)))

theorem pairMax_apply {s : Shape} (a b : FVec F s .f32) (i : s.Idx) : pairMax a b i = pm (a i) (b i) := rfl

/-- One chunk with its even lanes first and its odd lanes last. -/
def deint (x : FVec F S256x128 .f32) : FVec F S256x128 .f32 := dynamicGather 1 x laneIdx

theorem cat64 : Shape.Concatenates [S256x64, S256x64] S256x128 1 := by decide
theorem cat128 : Shape.Concatenates [S256x128, S256x128] S256x256 1 := by decide

/-- Two chunks (256 consecutive entries of a row): the network of their even entries and their odd entries. -/
def halfStage (x0 x1 : FVec F S256x128 .f32) : FVec F S256x128 .f32 :=
  pairMax
    (concatenate S256x128 1 [⟨S256x64, extractStridedSlice S256x64 ![0, 0] (deint x0) (by decide)⟩, ⟨S256x64, extractStridedSlice S256x64 ![0, 0] (deint x1) (by decide)⟩] cat64)
    (concatenate S256x128 1 [⟨S256x64, extractStridedSlice S256x64 ![0, 64] (deint x0) (by decide)⟩, ⟨S256x64, extractStridedSlice S256x64 ![0, 64] (deint x1) (by decide)⟩] cat64)

/-- One image row of 512 entries: the network of each of its 256 column pairs. -/
def colStage (v : FVec F S256x512 .f32) : FVec F S256x256 .f32 :=
  concatenate S256x256 1
    [⟨S256x128, halfStage (extractStridedSlice S256x128 ![0, 0] v (by decide)) (extractStridedSlice S256x128 ![0, 128] v (by decide))⟩,
     ⟨S256x128, halfStage (extractStridedSlice S256x128 ![0, 256] v (by decide)) (extractStridedSlice S256x128 ![0, 384] v (by decide))⟩] cat128

/-- 256 rows of the block: the network of the even image row's column pairs and the odd image row's. -/
def subGraph (v : Vec F S256x1024 .f32) : FVec F S256x256 .f32 :=
  pairMax (colStage (extractStridedSlice S256x512 ![0, 0] (shapeCast S256x1024 v (by decide)) (by decide)))
    (colStage (extractStridedSlice S256x512 ![0, 512] (shapeCast S256x1024 v (by decide)) (by decide)))

end Cert.KernelIdeal.Pool

end
-- ==== Proof.Pieces.lean ====
/-
  The four stores of the body. Each writes 256 rows of the output block, computed from the 256 rows of the input
  block with the same row numbers, and each is the same computation: the quarter-block function of SubGraph.lean
  applied to the rows it loaded.
-/
import proofs.«123821_g7490422964872_pilotgen1_124_14_alg».proof.Proof.SubGraph

noncomputable section

namespace Cert.KernelIdeal.Pool

open Idealize.ShloMosaic Cert.KernelIdeal Cert.KernelIdeal.Gen

variable {F : FTy → Type} [FloatOps F]

/-- Rows 0 to 255. -/
theorem store0_eq (X : Vec F S256x1024 .f32) :
    k0_pay14 k0_pay2 (k0_pay8 k0_pay2 (k0_pay4 X) (k0_pay5 X) (k0_pay6 X) k0_pay7) (k0_pay9 (k0_pay3 X)) (k0_pay11 k0_pay2 (k0_pay3 X)) (k0_pay12 k0_pay2 (k0_pay3 X)) (k0_pay13 k0_pay2 (k0_pay3 X))
      = subGraph X := rfl

/-- Rows 256 to 511. -/
theorem store1_eq (X : Vec F S256x1024 .f32) :
    k0_pay27 k0_pay2 (k0_pay21 (k0_pay17 k0_pay2 X) (k0_pay18 k0_pay2 X) (k0_pay19 X) (k0_pay20 k0_pay2)) (k0_pay22 (k0_pay15 X)) (k0_pay23 k0_pay2 (k0_pay15 X)) (k0_pay24 (k0_pay15 X)) (k0_pay25 k0_pay2) k0_pay26
      = subGraph X := rfl

/-- Rows 512 to 767. -/
theorem store2_eq (X : Vec F S256x1024 .f32) :
    k0_pay39 (k0_pay34 (k0_pay32 k0_pay2 (k0_pay30 k0_pay2 X) (k0_pay31 X)) (k0_pay33 k0_pay2 (k0_pay29 X))) (k0_pay36 k0_pay2 (k0_pay28 X)) (k0_pay37 k0_pay2 (k0_pay28 X)) (k0_pay38 k0_pay2 (k0_pay28 X))
      = subGraph X := rfl

/-- Rows 768 to 1023. -/
theorem store3_eq (X : Vec F S256x1024 .f32) :
    k0_pay1 (k0_pay51 k0_pay2 (k0_pay47 (k0_pay40 X)) (k0_pay48 k0_pay2 (k0_pay40 X)) (k0_pay49 (k0_pay40 X)) k0_pay50) (k0_pay52 k0_pay2 (k0_pay46 k0_pay2 (k0_pay41 X) (k0_pay44 k0_pay2 X) (k0_pay45 k0_pay2 X)) (k0_pay47 (k0_pay40 X)) (k0_pay48 k0_pay2 (k0_pay40 X)) (k0_pay49 (k0_pay40 X)) k0_pay50)
      = subGraph X := rfl

end Cert.KernelIdeal.Pool

end
-- ==== Proof.SubGraphRead.lean ====
/-
  The quarter-block function read at an index. A gather's lane l takes lane 2 l of its chunk below 64 and lane
  2 (l - 64) + 1 from 64 on; so of two chunks side by side, the first 64 lanes of the gathered pair are the even
  entries and the last 64 the odd ones, and entry l of the half stage is the network of entries 2 l and 2 l + 1 of
  the 256 consecutive entries the two chunks hold. Over the four chunks of an image row that is column pair q for
  every q below 256, and over the two image rows of a block row it is the network of the two rows' pair results.
-/
import proofs.«123821_g7490422964872_pilotgen1_124_14_alg».proof.Proof.SubGraph

noncomputable section

namespace Cert.KernelIdeal.Pool

open Idealize.ShloMosaic Idealize.ShloMosaic.ValueIdx Cert.KernelIdeal Cert.KernelIdeal.Gen Cert.LaneRead Cert.PoolSpec

variable {F : FTy → Type} [FloatOps F]

/-- A gathered chunk at lane `l` is the chunk at the lane the index word names. -/
theorem deint_apply (x : FVec F S256x128 .f32) (r : Fin 256) (l k : Fin 128)
    (hk : k.val = if l.val < 64 then 2 * l.val else 2 * l.val - 127) : deint x (ix2 r l) = x (ix2 r k) := by
  unfold deint
  exact gather_cols x laneIdx r l k (by rw [laneIdx_apply, laneWord_lane]; exact hk)

/-- Lanes below 64 of the half stage: the network of entries 2 l and 2 l + 1 of the first chunk. -/
theorem halfStage_lo (x0 x1 : FVec F S256x128 .f32) (r : Fin 256) (l : Fin 128) (h : l.val < 64) (k0 k1 : Fin 128)
    (h0 : k0.val = 2 * l.val) (h1 : k1.val = 2 * l.val + 1) :
    halfStage x0 x1 (ix2 r l) = pm (x0 (ix2 r k0)) (x0 (ix2 r k1)) := by
  unfold halfStage
  rw [pairMax_apply, concat_cols_left _ _ cat64 r l h, concat_cols_left _ _ cat64 r l h,
    slice2_axis1_apply 0 (deint x0) _ r ⟨l.val, h⟩ ⟨l.val, l.isLt⟩ (by show l.val = 0 + l.val; omega),
    slice2_axis1_apply 64 (deint x0) _ r ⟨l.val, h⟩ ⟨64 + l.val, by omega⟩ rfl,
    deint_apply x0 r ⟨l.val, l.isLt⟩ k0 (by show k0.val = if l.val < 64 then 2 * l.val else 2 * l.val - 127; rw [if_pos h]; exact h0),
    deint_apply x0 r ⟨64 + l.val, by omega⟩ k1 (by
      show k1.val = if 64 + l.val < 64 then 2 * (64 + l.val) else 2 * (64 + l.val) - 127
      rw [if_neg (by omega)]; omega)]

/-- Lanes from 64 on: the network of entries 2 (l - 64) and 2 (l - 64) + 1 of the second chunk. -/
theorem halfStage_hi (x0 x1 : FVec F S256x128 .f32) (r : Fin 256) (l : Fin 128) (h : 64 ≤ l.val) (k0 k1 : Fin 128)
    (h0 : k0.val = 2 * (l.val - 64)) (h1 : k1.val = 2 * (l.val - 64) + 1) :
    halfStage x0 x1 (ix2 r l) = pm (x1 (ix2 r k0)) (x1 (ix2 r k1)) := by
  have hl : l.val - 64 < 64 := by have := l.isLt; omega
  unfold halfStage
  rw [pairMax_apply, concat_cols_right _ _ cat64 r l h hl, concat_cols_right _ _ cat64 r l h hl,
    slice2_axis1_apply 0 (deint x1) _ r ⟨l.val - 64, hl⟩ ⟨l.val - 64, by omega⟩ (by show l.val - 64 = 0 + (l.val - 64); omega),
    slice2_axis1_apply 64 (deint x1) _ r ⟨l.val - 64, hl⟩ ⟨64 + (l.val - 64), by omega⟩ rfl,
    deint_apply x1 r ⟨l.val - 64, by omega⟩ k0 (by
      show k0.val = if l.val - 64 < 64 then 2 * (l.val - 64) else 2 * (l.val - 64) - 127
      rw [if_pos hl]; exact h0),
    deint_apply x1 r ⟨64 + (l.val - 64), by omega⟩ k1 (by
      show k1.val = if 64 + (l.val - 64) < 64 then 2 * (64 + (l.val - 64)) else 2 * (64 + (l.val - 64)) - 127
      rw [if_neg (by omega)]; omega)]

/-- An image row's column pair `q`: the network of its entries 2 q and 2 q + 1. -/
theorem colStage_apply (v : FVec F S256x512 .f32) (r : Fin 256) (q : Fin 256) (k0 k1 : Fin 512)
    (h0 : k0.val = 2 * q.val) (h1 : k1.val = 2 * q.val + 1) :
    colStage v (ix2 r q) = pm (v (ix2 r k0)) (v (ix2 r k1)) := by
  have hq := q.isLt
  unfold colStage
  by_cases hq1 : q.val < 128
  · rw [concat_cols_left _ _ cat128 r q hq1]
    by_cases hl : q.val < 64
    · rw [halfStage_lo _ _ r ⟨q.val, hq1⟩ hl ⟨2 * q.val, by omega⟩ ⟨2 * q.val + 1, by omega⟩ rfl rfl,
        slice2_axis1_apply 0 v _ r ⟨2 * q.val, by omega⟩ k0 (by show k0.val = 0 + 2 * q.val; omega),
        slice2_axis1_apply 0 v _ r ⟨2 * q.val + 1, by omega⟩ k1 (by show k1.val = 0 + (2 * q.val + 1); omega)]
    · rw [halfStage_hi _ _ r ⟨q.val, hq1⟩ (by show 64 ≤ q.val; omega) ⟨2 * (q.val - 64), by omega⟩ ⟨2 * (q.val - 64) + 1, by omega⟩ rfl rfl,
        slice2_axis1_apply 128 v _ r ⟨2 * (q.val - 64), by omega⟩ k0 (by show k0.val = 128 + 2 * (q.val - 64); omega),
        slice2_axis1_apply 128 v _ r ⟨2 * (q.val - 64) + 1, by omega⟩ k1 (by show k1.val = 128 + (2 * (q.val - 64) + 1); omega)]
  · have hq2 : 128 ≤ q.val := by omega
    have hq3 : q.val - 128 < 128 := by omega
    rw [concat_cols_right _ _ cat128 r q hq2 hq3]
    by_cases hl : q.val - 128 < 64
    · rw [halfStage_lo _ _ r ⟨q.val - 128, hq3⟩ hl ⟨2 * (q.val - 128), by omega⟩ ⟨2 * (q.val - 128) + 1, by omega⟩ rfl rfl,
        slice2_axis1_apply 256 v _ r ⟨2 * (q.val - 128), by omega⟩ k0 (by show k0.val = 256 + 2 * (q.val - 128); omega),
        slice2_axis1_apply 256 v _ r ⟨2 * (q.val - 128) + 1, by omega⟩ k1 (by show k1.val = 256 + (2 * (q.val - 128) + 1); omega)]
    · rw [halfStage_hi _ _ r ⟨q.val - 128, hq3⟩ (by show 64 ≤ q.val - 128; omega) ⟨2 * (q.val - 128 - 64), by omega⟩ ⟨2 * (q.val - 128 - 64) + 1, by omega⟩ rfl rfl,
        slice2_axis1_apply 384 v _ r ⟨2 * (q.val - 128 - 64), by omega⟩ k0 (by show k0.val = 384 + 2 * (q.val - 128 - 64); omega),
        slice2_axis1_apply 384 v _ r ⟨2 * (q.val - 128 - 64) + 1, by omega⟩ k1 (by show k1.val = 384 + (2 * (q.val - 128 - 64) + 1); omega)]

/-- A block row's entry `q`: the network of the even image row's column pair `q` and the odd image row's. -/
theorem subGraph_apply (v : Vec F S256x1024 .f32) (r : Fin 256) (q : Fin 256) (a0 a1 b0 b1 : Fin 1024)
    (ha0 : a0.val = 2 * q.val) (ha1 : a1.val = 2 * q.val + 1) (hb0 : b0.val = 512 + 2 * q.val) (hb1 : b1.val = 512 + (2 * q.val + 1)) :
    subGraph v (ix2 r q) = pm (pm (v (ix2 r a0)) (v (ix2 r a1))) (pm (v (ix2 r b0)) (v (ix2 r b1))) := by
  have hq := q.isLt
  unfold subGraph
  rw [pairMax_apply, shapeCast_self,
    colStage_apply (extractStridedSlice S256x512 ![0, 0] v (by decide)) r q ⟨2 * q.val, by omega⟩ ⟨2 * q.val + 1, by omega⟩ rfl rfl,
    colStage_apply (extractStridedSlice S256x512 ![0, 512] v (by decide)) r q ⟨2 * q.val, by omega⟩ ⟨2 * q.val + 1, by omega⟩ rfl rfl,
    slice2_axis1_apply 0 v _ r ⟨2 * q.val, by omega⟩ a0 (by show a0.val = 0 + 2 * q.val; omega),
    slice2_axis1_apply 0 v _ r ⟨2 * q.val + 1, by omega⟩ a1 (by show a1.val = 0 + (2 * q.val + 1); omega),
    slice2_axis1_apply 512 v _ r ⟨2 * q.val, by omega⟩ b0 (by show b0.val = 512 + 2 * q.val; omega),
    slice2_axis1_apply 512 v _ r ⟨2 * q.val + 1, by omega⟩ b1 (by show b1.val = 512 + (2 * q.val + 1); omega)]

end Cert.KernelIdeal.Pool

end
-- ==== Proof.KernelValue.lean ====
/-
  The kernel's output array. Row R of the 16384-by-1024 array the region reads is an even image row followed by the
  next odd image row; row R of the 16384-by-256 array it writes holds, at column q, the pairwise network of the even
  row's column pair q and the odd row's column pair q. Each grid point handles 1024 consecutive rows, four stores of
  256 rows each, every one the quarter-block function of the rows with the same numbers; the sixteen blocks tile the
  array.
-/
import proofs.«123821_g7490422964872_pilotgen1_124_14_alg».proof.Proof.Gen.KernelIdeal.Frame
import proofs.«123821_g7490422964872_pilotgen1_124_14_alg».proof.Proof.Pieces
import proofs.«123821_g7490422964872_pilotgen1_124_14_alg».proof.Proof.SubGraphRead
import Idealize.ShloMosaic.Lib.Pipeline.Value
import Idealize.ShloMosaic.Lib.StableHlo.Run
import Idealize.ShloMosaic.Lib.Tactic

set_option maxRecDepth 16384

noncomputable section

namespace Cert.KernelIdeal.Pool

open Idealize.ShloMosaic Idealize.ShloMosaic.TcCoe Idealize.SL.Sem Idealize.ShloMosaic.ValueIdx
open Cert.KernelIdeal Cert.KernelIdeal.Gen Cert.PoolSpec
open Idealize.ShloMosaic.Pipeline (Dat)

variable {F : FTy → Type} [FloatOps F]

/-! ## Rows -/

/-- Row by row: column q of the result is the network of the row's column pairs q of its two halves. -/
def rowPool {n : Nat} (X : (⟨2, ![n, 1024]⟩ : Shape).Idx → F .f32) : (⟨2, ![n, 256]⟩ : Shape).Idx → F .f32 := fun y =>
  pm (pm (X (ix2 (y 0) ⟨2 * (y 1).val, by have := idx2_lt1 y; omega⟩)) (X (ix2 (y 0) ⟨2 * (y 1).val + 1, by have := idx2_lt1 y; omega⟩)))
    (pm (X (ix2 (y 0) ⟨512 + 2 * (y 1).val, by have := idx2_lt1 y; omega⟩)) (X (ix2 (y 0) ⟨512 + (2 * (y 1).val + 1), by have := idx2_lt1 y; omega⟩)))

theorem rowPool_apply {n : Nat} (X : (⟨2, ![n, 1024]⟩ : Shape).Idx → F .f32) (R : Fin n) (q : Fin 256) (a0 a1 b0 b1 : Fin 1024)
    (ha0 : a0.val = 2 * q.val) (ha1 : a1.val = 2 * q.val + 1) (hb0 : b0.val = 512 + 2 * q.val) (hb1 : b1.val = 512 + (2 * q.val + 1)) :
    rowPool X (ix2 R q) = pm (pm (X (ix2 R a0)) (X (ix2 R a1))) (pm (X (ix2 R b0)) (X (ix2 R b1))) := by
  unfold rowPool
  have e0 : (⟨2 * q.val, by have := q.isLt; omega⟩ : Fin 1024) = a0 := Fin.ext ha0.symm
  have e1 : (⟨2 * q.val + 1, by have := q.isLt; omega⟩ : Fin 1024) = a1 := Fin.ext ha1.symm
  have e2 : (⟨512 + 2 * q.val, by have := q.isLt; omega⟩ : Fin 1024) = b0 := Fin.ext hb0.symm
  have e3 : (⟨512 + (2 * q.val + 1), by have := q.isLt; omega⟩ : Fin 1024) = b1 := Fin.ext hb1.symm
  show pm (pm (X (ix2 R ⟨2 * q.val, _⟩)) (X (ix2 R ⟨2 * q.val + 1, _⟩))) (pm (X (ix2 R ⟨512 + 2 * q.val, _⟩)) (X (ix2 R ⟨512 + (2 * q.val + 1), _⟩))) = _
  rw [e0, e1, e2, e3]

/-- Two arrays with the same row at the same column position give the same result there. -/
theorem rowPool_congr {n n' : Nat} (X : (⟨2, ![n, 1024]⟩ : Shape).Idx → F .f32) (Y : (⟨2, ![n', 1024]⟩ : Shape).Idx → F .f32)
    (R : Fin n) (R' : Fin n') (q q' : Fin 256) (hq : q.val = q'.val)
    (h : ∀ a : Fin 1024, X (ix2 R a) = Y (ix2 R' a)) : rowPool X (ix2 R q) = rowPool Y (ix2 R' q') := by
  have hy := q.isLt
  have hy' := q'.isLt
  rw [rowPool_apply X R q ⟨2 * q.val, by omega⟩ ⟨2 * q.val + 1, by omega⟩ ⟨512 + 2 * q.val, by omega⟩ ⟨512 + (2 * q.val + 1), by omega⟩ rfl rfl rfl rfl,
    rowPool_apply Y R' q' ⟨2 * q.val, by omega⟩ ⟨2 * q.val + 1, by omega⟩ ⟨512 + 2 * q.val, by omega⟩ ⟨512 + (2 * q.val + 1), by omega⟩
      (by show 2 * q.val = 2 * q'.val; omega) (by show 2 * q.val + 1 = 2 * q'.val + 1; omega)
      (by show 512 + 2 * q.val = 512 + 2 * q'.val; omega) (by show 512 + (2 * q.val + 1) = 512 + (2 * q'.val + 1); omega),
    h, h, h, h]

/-! ## One block -/

/-- Rows o … o + 255 of a block, loaded, at (r, a): the block at (o + r, a). -/
theorem ld_row (x0 : Vec F S1024x1024 .f32) (o : Nat) (hi : ∀ a, ![o, 0] a + S256x1024.size a ≤ S1024x1024.size a)
    (r : Fin 256) (a : Fin 1024) (R : Fin 1024) (hR : R.val = o + r.val) :
    View.ld x0 (Rect.unit (s := S1024x1024) ![o, 0] S256x1024.size hi) (ix2 r a) = x0 (ix2 R a) :=
  congrArg x0 (funext fun d => Fin.ext (by
    match d with
    | ⟨0, _⟩ => show o + 1 * r.val = R.val; omega
    | ⟨1, _⟩ => show 0 + 1 * a.val = a.val; omega))

/-- The quarter-block function of rows o … o + 255 is the row function on those rows. -/
theorem quarter_eq (x0 : Vec F S1024x1024 .f32) (o : Nat) (hO : o + 256 ≤ 1024)
    (hi : ∀ a, ![o, 0] a + S256x1024.size a ≤ S1024x1024.size a) (ho : ∀ a, ![o, 0] a + S256x256.size a ≤ S1024x256.size a)
    (x : S256x256.Idx) :
    subGraph (View.ld x0 (Rect.unit (s := S1024x1024) ![o, 0] S256x1024.size hi)) x
      = rowPool x0 ((Rect.unit (s := S1024x256) ![o, 0] S256x256.size ho).emb x) := by
  obtain ⟨r, q, rfl⟩ : ∃ (r : Fin 256) (q : Fin 256), x = ix2 r q := ⟨x 0, x 1, eq_ix2 x⟩
  have hr := r.isLt
  have hq := q.isLt
  have e : (Rect.unit (s := S1024x256) ![o, 0] S256x256.size ho).emb (ix2 r q) = ix2 (⟨o + r.val, by omega⟩ : Fin 1024) q :=
    funext fun d => Fin.ext (by
      match d with
      | ⟨0, _⟩ => show o + 1 * r.val = o + r.val; omega
      | ⟨1, _⟩ => show 0 + 1 * q.val = q.val; omega)
  rw [e, subGraph_apply _ r q ⟨2 * q.val, by omega⟩ ⟨2 * q.val + 1, by omega⟩ ⟨512 + 2 * q.val, by omega⟩ ⟨512 + (2 * q.val + 1), by omega⟩ rfl rfl rfl rfl,
    rowPool_apply x0 ⟨o + r.val, by omega⟩ q ⟨2 * q.val, by omega⟩ ⟨2 * q.val + 1, by omega⟩ ⟨512 + 2 * q.val, by omega⟩ ⟨512 + (2 * q.val + 1), by omega⟩ rfl rfl rfl rfl,
    ld_row x0 o hi r _ ⟨o + r.val, by omega⟩ rfl, ld_row x0 o hi r _ ⟨o + r.val, by omega⟩ rfl,
    ld_row x0 o hi r _ ⟨o + r.val, by omega⟩ rfl, ld_row x0 o hi r _ ⟨o + r.val, by omega⟩ rfl]

/-- What the body leaves in the output block: the row function of the input block. -/
theorem out0_1_eq (x0 : Vec F S1024x1024 .f32) : out0_1 x0 = rowPool x0 := by
  funext y
  unfold out0_1
  refine View.canon_apply_of_pieces (rowPool x0) _ ?_ y (cover0_1 _ _ _ _ y)
  intro p hp x
  simp only [List.mem_cons, List.mem_nil_iff, or_false] at hp
  rcases hp with rfl | rfl | rfl | rfl
  · dsimp only
    rw [store3_eq]
    exact quarter_eq x0 768 (by decide) _ _ x
  · dsimp only
    rw [store2_eq]
    exact quarter_eq x0 512 (by decide) _ _ x
  · dsimp only
    rw [store1_eq]
    exact quarter_eq x0 256 (by decide) _ _ x
  · dsimp only
    rw [store0_eq]
    exact quarter_eq x0 0 (by decide) _ _ x

/-! ## The blocks and the array -/

variable (m : (ℓ : Loc nD τ sig) → Buf (Elt F) ℓ) (ρ : Dev nD → PrngReg)

/-- Both windows move down the rows with the grid point and never along the columns. -/
theorem idx_facts : ∀ t : Fin cfg0.N, win0_0.index t (0 : Fin 2) = win0_1.index t (0 : Fin 2)
    ∧ win0_0.index t (1 : Fin 2) = 0 ∧ win0_1.index t (1 : Fin 2) = 0 ∧ win0_1.index t (0 : Fin 2) ≤ 15 :=
  (by decide +kernel : ∀ t : Fin grid0.N, _)

/-- Every one of the sixteen row blocks is some point's. -/
theorem idx_onto : ∀ q0 : Fin 16, ∃ t : Fin cfg0.N, win0_1.index t = ![q0.val, 0] :=
  (by decide +kernel : ∀ q0 : Fin 16, ∃ t : Fin grid0.N, win0_1.index t = ![q0.val, 0])

/-- What point `t` writes back is its block of the row function of the array the region reads. -/
theorem flushed_eq (c : Dev nD) (t : Fin cfg0.N) :
    (dats m 0 c).flushed 1 t = ((cfg0.win 1).blk t).view.read (Elt F) (rowPool (V m c main_v0 : S16384x1024.Idx → Elt F .f32)) := by
  show (cfg0.win 1).cut (grid0.coords t) ((dats m 0 c).after 1 t) = _
  rw [after0_1, out0_1_eq]
  obtain ⟨e0, e1, e2, e3⟩ := idx_facts t
  funext j
  obtain ⟨r, q, rfl⟩ : ∃ (r : Fin 1024) (q : Fin 256), j = ix2 r q := ⟨j 0, j 1, eq_ix2 j⟩
  have hr := r.isLt
  have eE : ((cfg0.win 1).blk t).view.emb (ix2 r q) = ix2 (⟨win0_1.index t (0 : Fin 2) * 1024 + r.val, by omega⟩ : Fin 16384) q :=
    funext fun d => Fin.ext (by
      match d with
      | ⟨0, _⟩ => show win0_1.index t (0 : Fin 2) * 1024 + 1 * r.val = win0_1.index t (0 : Fin 2) * 1024 + r.val; omega
      | ⟨1, _⟩ => show win0_1.index t (1 : Fin 2) * 256 + 1 * q.val = q.val; omega)
  show rowPool (iblk m c 0 t) (ix2 r q) = rowPool (V m c main_v0 : S16384x1024.Idx → Elt F .f32) (((cfg0.win 1).blk t).view.emb (ix2 r q))
  rw [eE]
  refine rowPool_congr (iblk m c 0 t) (V m c main_v0 : S16384x1024.Idx → Elt F .f32) r _ q q rfl (fun a => ?_)
  show V m c main_v0 (((cfg0.win 0).blk t).view.emb (ix2 r a)) = V m c main_v0 (ix2 _ a)
  refine congrArg (V m c main_v0) (funext fun d => Fin.ext ?_)
  match d with
  | ⟨0, _⟩ => show win0_0.index t (0 : Fin 2) * 1024 + 1 * r.val = win0_1.index t (0 : Fin 2) * 1024 + r.val; omega
  | ⟨1, _⟩ => show win0_0.index t (1 : Fin 2) * 1024 + 1 * a.val = a.val; omega

/-- An index of the array is in point `t`'s block iff each coordinate is in the block's range on its axis. -/
theorem mem_blk (t : Fin cfg0.N) (i : S16384x256.Idx) :
    i ∈ ((cfg0.win 1).blk t).view.set ↔ ∀ a : Fin 2, win0_1.index t a * S1024x256.size a ≤ (i a).val ∧ (i a).val < win0_1.index t a * S1024x256.size a + S1024x256.size a := by
  show i ∈ ((View.whole main_v1).slice (win0_1.rect t)).set ↔ _
  rw [View.set_slice_whole, Rect.mem_set_unit]
  exact Iff.rfl

/-- Row R lies in the block of the point whose row block is R / 1024. -/
theorem cover (i : S16384x256.Idx) : ∃ t : Fin cfg0.N, (cfg0.win 1).flush t = true ∧ i ∈ ((cfg0.win 1).blk t).view.set := by
  have hi0 : (i 0).val < 16384 := (i 0).isLt
  have hi1 : (i 1).val < 256 := (i 1).isLt
  obtain ⟨t, ht⟩ := idx_onto ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_blk]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 256 ≤ (i 1).val ∧ (i 1).val < win0_1.index t (1 : Fin 2) * 256 + 256; omega

/-- The output array after the run: the row function of the array the region reads. -/
theorem final (c : Dev nD) : (dats m 0 c).arrAt 1 cfg0.N = rowPool (V m c main_v0 : S16384x1024.Idx → Elt F .f32) :=
  (dats m 0 c).arrAt_eq_of_cover 1 _ (fun t _ => flushed_eq m c t) cover

/-! ## Around the region -/

/-- The array the region reads is the image with each pair of image rows laid in one row. -/
theorem V_main_v0 (c : Dev nD) : (V m c main_v0 : S16384x1024.Idx → Elt F .f32)
    = shapeCast S16384x1024 (m ((c : Thread nD τ).loc main_arg0) : S64x512x512.Idx → Elt F .f32) Facts₀.shapeCasts_S64x512x512_S16384x1024 := by
  show StableHlo.after hostOps0 (fun b => m (c, b)) (Proc.devRef .tc main_v0) = _
  after_results
  rfl

/-- Rows (ch, oh) of the output array, read back as a 64-by-256-by-256 array of the row function of the paired
    image rows, are the tournament on the image's two-by-two windows. -/
theorem layout_eq (x : S64x512x512.Idx → F .f32) (h1 : S64x512x512.ShapeCasts S16384x1024) (h2 : S16384x256.ShapeCasts S64x256x256) :
    shapeCast S64x256x256 (rowPool (shapeCast S16384x1024 x h1)) h2 = poolG x := by
  funext i
  obtain ⟨ch, oh, ow, rfl⟩ : ∃ (ch : Fin 64) (oh ow : Fin 256), i = ix3 ch oh ow := ⟨i 0, i 1, i 2, eq_ix3 i⟩
  have hch := ch.isLt
  have hoh := oh.isLt
  have how := ow.isLt
  rw [shapeCast_apply _ h2 (ix3 ch oh ow) (ix2 (⟨ch.val * 256 + oh.val, by omega⟩ : Fin 16384) ow) (by
      rw [Shape.rowMajor_val_two, Shape.rowMajor_val_three]
      show (ch.val * 256 + oh.val) * 256 + ow.val = (ch.val * 256 + oh.val) * 256 + ow.val
      rfl),
    rowPool_apply _ ⟨ch.val * 256 + oh.val, by omega⟩ ow ⟨2 * ow.val, by omega⟩ ⟨2 * ow.val + 1, by omega⟩ ⟨512 + 2 * ow.val, by omega⟩ ⟨512 + (2 * ow.val + 1), by omega⟩ rfl rfl rfl rfl,
    poolG_apply x ch oh ow ⟨2 * oh.val, by omega⟩ ⟨2 * oh.val + 1, by omega⟩ ⟨2 * ow.val, by omega⟩ ⟨2 * ow.val + 1, by omega⟩ rfl rfl rfl rfl,
    shapeCast_apply x h1 (ix2 (⟨ch.val * 256 + oh.val, by omega⟩ : Fin 16384) (⟨2 * ow.val, by omega⟩ : Fin 1024)) (ix3 ch (⟨2 * oh.val, by omega⟩ : Fin 512) (⟨2 * ow.val, by omega⟩ : Fin 512)) (by
      rw [Shape.rowMajor_val_two, Shape.rowMajor_val_three]
      show (ch.val * 512 + 2 * oh.val) * 512 + 2 * ow.val = (ch.val * 256 + oh.val) * 1024 + 2 * ow.val
      omega),
    shapeCast_apply x h1 (ix2 (⟨ch.val * 256 + oh.val, by omega⟩ : Fin 16384) (⟨2 * ow.val + 1, by omega⟩ : Fin 1024)) (ix3 ch (⟨2 * oh.val, by omega⟩ : Fin 512) (⟨2 * ow.val + 1, by omega⟩ : Fin 512)) (by
      rw [Shape.rowMajor_val_two, Shape.rowMajor_val_three]
      show (ch.val * 512 + 2 * oh.val) * 512 + (2 * ow.val + 1) = (ch.val * 256 + oh.val) * 1024 + (2 * ow.val + 1)
      omega),
    shapeCast_apply x h1 (ix2 (⟨ch.val * 256 + oh.val, by omega⟩ : Fin 16384) (⟨512 + 2 * ow.val, by omega⟩ : Fin 1024)) (ix3 ch (⟨2 * oh.val + 1, by omega⟩ : Fin 512) (⟨2 * ow.val, by omega⟩ : Fin 512)) (by
      rw [Shape.rowMajor_val_two, Shape.rowMajor_val_three]
      show (ch.val * 512 + (2 * oh.val + 1)) * 512 + 2 * ow.val = (ch.val * 256 + oh.val) * 1024 + (512 + 2 * ow.val)
      omega),
    shapeCast_apply x h1 (ix2 (⟨ch.val * 256 + oh.val, by omega⟩ : Fin 16384) (⟨512 + (2 * ow.val + 1), by omega⟩ : Fin 1024)) (ix3 ch (⟨2 * oh.val + 1, by omega⟩ : Fin 512) (⟨2 * ow.val + 1, by omega⟩ : Fin 512)) (by
      rw [Shape.rowMajor_val_two, Shape.rowMajor_val_three]
      show (ch.val * 512 + (2 * oh.val + 1)) * 512 + (2 * ow.val + 1) = (ch.val * 256 + oh.val) * 1024 + (512 + (2 * ow.val + 1))
      omega)]

/-- After the region the output array is read back as 64 channels of 256 by 256. -/
theorem tail_eq (c : Dev nD) : Pipeline.afterTail₀ cfgs (dats m) 0 (V0 m) [hostOps1] c main_v2
    = shapeCast S64x256x256 ((dats m 0 c).arrAt 1 cfg0.N : S16384x256.Idx → Elt F .f32) Facts₀.shapeCasts_S16384x256_S64x256x256 := by
  unfold Pipeline.afterTail₀
  show StableHlo.after hostOps1 _ (Proc.devRef .tc main_v2) = _
  after_results
  rw [show Pipeline.withArrays (cfgs 0).spec c (V0 m c) (fun w => (dats m 0 c).arrAt w (cfgs 0).N) (Proc.devRef .tc main_v1) = (dats m 0 c).arrAt 1 cfg0.N from
    Pipeline.withArrays_arr spec0 launch0.win.arr_inj c _ _ 1]
  rfl

/-- The kernel's result is the tournament on the image's two-by-two windows. -/
theorem result_eq (c : Dev nD) : Pipeline.afterTail₀ cfgs (dats m) 0 (V0 m) [hostOps1] c main_v2
    = poolG (m ((c.tc : Thread nD τ).loc main_arg0) : S64x512x512.Idx → Elt F .f32) := by
  rw [tail_eq, final, V_main_v0]
  exact layout_eq _ _ _

/-- The run, read: the result at the tournament of the image, the image unchanged. -/
theorem run : θ_run defs (onTc (τ := τ) (main (F := F))) ⟨m, fun _ => 0, ρ⟩ fun r => ∀ c : Dev nD,
      r.2.mem ((c.tc : Thread nD τ).loc main_v2) = poolG (m ((c.tc : Thread nD τ).loc main_arg0) : S64x512x512.Idx → Elt F .f32)
      ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c)⟩)
    (run_main m ρ)

end Cert.KernelIdeal.Pool

end
-- ==== Proof.RefValue.lean ====
/-
  The reference's result. It views the image as windows: entry k = 2 a + b of window (ch, oh, ow) is the image at row
  2 oh + a, column 2 ow + b (a reshape to 64 x 256 x 2 x 256 x 2, the two middle axes exchanged, the last two
  merged). It then applies the pairwise network to entries 0, 1 and to entries 2, 3 and to the two results, each
  time followed by one more maximum with 0, which on the extended reals changes nothing. So it is the tournament of
  Spec.lean.
-/
import proofs.«123821_g7490422964872_pilotgen1_124_14_alg».proof.Proof.Gen.ReferenceIdeal.Read
import proofs.«123821_g7490422964872_pilotgen1_124_14_alg».proof.Proof.Spec
import Idealize.ShloMosaic.Lib.ValueIdx

noncomputable section

namespace Cert.ReferenceIdeal.RefValue

open Idealize.ShloMosaic Idealize.ShloMosaic.ValueIdx Cert.ReferenceIdeal Cert.ReferenceIdeal.Read Cert.PoolSpec

variable {F : FTy → Type} [FloatOps F]

/-! ## The layout steps on coordinates -/

/-- A window's entry, listed with a unit last axis. -/
theorem idx4 (ch : Fin 64) (oh ow : Fin 256) : idx_main_v4 (ix3 ch oh ow) = ix4 ch oh ow (0 : Fin 1) := by
  have := ch.isLt; have := oh.isLt; have := ow.isLt
  funext d
  match d with
  | ⟨0, _⟩ => exact Fin.ext (by show ((ch.val * 256 + oh.val) * 256 + ow.val) / 65536 = ch.val; omega)
  | ⟨1, _⟩ => exact Fin.ext (by show ((ch.val * 256 + oh.val) * 256 + ow.val) / 256 % 256 = oh.val; omega)
  | ⟨2, _⟩ => exact Fin.ext (by show ((ch.val * 256 + oh.val) * 256 + ow.val) / 1 % 256 = ow.val; omega)
  | ⟨3, _⟩ => rfl
theorem idx6 (ch : Fin 64) (oh ow : Fin 256) : idx_main_v6 (ix3 ch oh ow) = ix4 ch oh ow (0 : Fin 1) := idx4 ch oh ow
theorem idx13 (ch : Fin 64) (oh ow : Fin 256) : idx_main_v13 (ix3 ch oh ow) = ix4 ch oh ow (0 : Fin 1) := idx4 ch oh ow
theorem idx15 (ch : Fin 64) (oh ow : Fin 256) : idx_main_v15 (ix3 ch oh ow) = ix4 ch oh ow (0 : Fin 1) := idx4 ch oh ow

/-- The four slices pick entries 0, 1, 2, 3. -/
theorem idx3 (ch : Fin 64) (oh ow : Fin 256) : idx_main_v3 (ix4 ch oh ow (0 : Fin 1)) = ix4 ch oh ow (0 : Fin 4) := by
  funext d; match d with | ⟨0, _⟩ => rfl | ⟨1, _⟩ => rfl | ⟨2, _⟩ => rfl | ⟨3, _⟩ => rfl
theorem idx5 (ch : Fin 64) (oh ow : Fin 256) : idx_main_v5 (ix4 ch oh ow (0 : Fin 1)) = ix4 ch oh ow (1 : Fin 4) := by
  funext d; match d with | ⟨0, _⟩ => rfl | ⟨1, _⟩ => rfl | ⟨2, _⟩ => rfl | ⟨3, _⟩ => rfl
theorem idx12 (ch : Fin 64) (oh ow : Fin 256) : idx_main_v12 (ix4 ch oh ow (0 : Fin 1)) = ix4 ch oh ow (2 : Fin 4) := by
  funext d; match d with | ⟨0, _⟩ => rfl | ⟨1, _⟩ => rfl | ⟨2, _⟩ => rfl | ⟨3, _⟩ => rfl
theorem idx14 (ch : Fin 64) (oh ow : Fin 256) : idx_main_v14 (ix4 ch oh ow (0 : Fin 1)) = ix4 ch oh ow (3 : Fin 4) := by
  funext d; match d with | ⟨0, _⟩ => rfl | ⟨1, _⟩ => rfl | ⟨2, _⟩ => rfl | ⟨3, _⟩ => rfl

/-- Entry k of a window is its entry (k / 2, k % 2) as a two-by-two array. -/
theorem idx2 (ch : Fin 64) (oh ow : Fin 256) (k : Fin 4) (a b : Fin 2) (ha : a.val = k.val / 2) (hb : b.val = k.val % 2) :
    idx_main_v2 (ix4 ch oh ow k) = ix5 ch oh ow a b := by
  have := ch.isLt; have := oh.isLt; have := ow.isLt; have := k.isLt
  funext d
  match d with
  | ⟨0, _⟩ => exact Fin.ext (by show (((ch.val * 256 + oh.val) * 256 + ow.val) * 4 + k.val) / 262144 = ch.val; omega)
  | ⟨1, _⟩ => exact Fin.ext (by show (((ch.val * 256 + oh.val) * 256 + ow.val) * 4 + k.val) / 1024 % 256 = oh.val; omega)
  | ⟨2, _⟩ => exact Fin.ext (by show (((ch.val * 256 + oh.val) * 256 + ow.val) * 4 + k.val) / 4 % 256 = ow.val; omega)
  | ⟨3, _⟩ => exact Fin.ext (by show (((ch.val * 256 + oh.val) * 256 + ow.val) * 4 + k.val) / 2 % 2 = a.val; omega)
  | ⟨4, _⟩ => exact Fin.ext (by show (((ch.val * 256 + oh.val) * 256 + ow.val) * 4 + k.val) % 2 = b.val; omega)

/-- The exchange of the two middle axes. -/
theorem idx1 (ch : Fin 64) (oh ow : Fin 256) (a b : Fin 2) : idx_main_v1 (ix5 ch oh ow a b) = ix5 ch oh a ow b := by
  funext d; match d with | ⟨0, _⟩ => rfl | ⟨1, _⟩ => rfl | ⟨2, _⟩ => rfl | ⟨3, _⟩ => rfl | ⟨4, _⟩ => rfl

/-- Entry (oh, a, ow, b) of the five-axis view is the image at row 2 oh + a, column 2 ow + b. -/
theorem idx0 (ch : Fin 64) (oh ow : Fin 256) (a b : Fin 2) (R C : Fin 512) (hR : R.val = 2 * oh.val + a.val) (hC : C.val = 2 * ow.val + b.val) :
    idx_main_v0 (ix5 ch oh a ow b) = ix3 ch R C := by
  have := ch.isLt; have := oh.isLt; have := ow.isLt; have := a.isLt; have := b.isLt
  funext d
  match d with
  | ⟨0, _⟩ => exact Fin.ext (by show ((((ch.val * 256 + oh.val) * 2 + a.val) * 256 + ow.val) * 2 + b.val) / 262144 = ch.val; omega)
  | ⟨1, _⟩ => exact Fin.ext (by show ((((ch.val * 256 + oh.val) * 2 + a.val) * 256 + ow.val) * 2 + b.val) / 512 % 512 = R.val; omega)
  | ⟨2, _⟩ => exact Fin.ext (by show ((((ch.val * 256 + oh.val) * 2 + a.val) * 256 + ow.val) * 2 + b.val) % 512 = C.val; omega)

/-- Entry k of window (ch, oh, ow) is the image at row 2 oh + k / 2, column 2 ow + k % 2. -/
theorem window (x : (⟨S64x512x512, .f32⟩ : BufTy).Contents (Elt F)) (ch : Fin 64) (oh ow : Fin 256) (k : Fin 4) (R C : Fin 512)
    (hR : R.val = 2 * oh.val + k.val / 2) (hC : C.val = 2 * ow.val + k.val % 2) :
    val_main_v2 (F := F) x (ix4 ch oh ow k) = x (ix3 ch R C) := by
  have hk := k.isLt
  rw [val_main_v2_apply, idx2 ch oh ow k ⟨k.val / 2, by omega⟩ ⟨k.val % 2, by omega⟩ rfl rfl, val_main_v1_apply, idx1,
    val_main_v0_apply, idx0 ch oh ow _ _ R C hR hC]

/-! ## The reference is the tournament -/

theorem ref_eq (x : (⟨S64x512x512, .f32⟩ : BufTy).Contents (Elt Ideal)) : val_main_v25 (F := Ideal) x = poolG (F := Ideal) x := by
  funext i
  obtain ⟨ch, oh, ow, rfl⟩ : ∃ (ch : Fin 64) (oh ow : Fin 256), i = ix3 ch oh ow := ⟨i 0, i 1, i 2, eq_ix3 i⟩
  have hoh := oh.isLt
  have how := ow.isLt
  rw [poolG_apply (F := Ideal) x ch oh ow ⟨2 * oh.val, by omega⟩ ⟨2 * oh.val + 1, by omega⟩ ⟨2 * ow.val, by omega⟩ ⟨2 * ow.val + 1, by omega⟩ rfl rfl rfl rfl]
  rw [val_main_v25_apply, val_main_v24_apply, val_main_v22_apply, val_main_v23_apply, val_main_v21_apply, val_main_v20_apply,
    val_main_v19_apply, val_main_v17_apply, val_main_v18_apply, val_main_v16_apply, val_main_v11_apply, val_main_v10_apply,
    val_main_v8_apply, val_main_v9_apply, val_main_v7_apply]
  rw [val_main_v4_apply, idx4, val_main_v3_apply, idx3, window x ch oh ow 0 ⟨2 * oh.val, by omega⟩ ⟨2 * ow.val, by omega⟩ rfl rfl,
    val_main_v6_apply, idx6, val_main_v5_apply, idx5, window x ch oh ow 1 ⟨2 * oh.val, by omega⟩ ⟨2 * ow.val + 1, by omega⟩ rfl rfl,
    val_main_v13_apply, idx13, val_main_v12_apply, idx12, window x ch oh ow 2 ⟨2 * oh.val + 1, by omega⟩ ⟨2 * ow.val, by omega⟩ rfl rfl,
    val_main_v15_apply, idx15, val_main_v14_apply, idx14, window x ch oh ow 3 ⟨2 * oh.val + 1, by omega⟩ ⟨2 * ow.val + 1, by omega⟩ rfl rfl]
  rw [val_main_call0_v0_apply, val_main_call0_cst_apply, val_main_call1_v0_apply, val_main_call1_cst_apply,
    val_main_call2_v0_apply, val_main_call2_cst_apply, val_main_call3_v0_apply, val_main_call3_cst_apply,
    val_main_call4_v0_apply, val_main_call4_cst_apply, val_main_call5_v0_apply, val_main_call5_cst_apply,
    val_main_call6_v0_apply, val_main_call6_cst_apply, val_main_call7_v0_apply, val_main_call7_cst_apply,
    val_main_call8_v0_apply, val_main_call8_cst_apply]
  rw [pm_ideal, pm_ideal, pm_ideal]
  simp only [Ideal.maximumf_def, Ideal.addf_def, Ideal.subf_def, Ideal.ofBits_def, Ideal.ofBits_zero_f32, relu_sum]
  exact max_eq_left (add_nonneg (le_max_right _ _) (add_nonneg (le_max_right _ _) (le_max_right _ _)))

end Cert.ReferenceIdeal.RefValue

end
-- ==== Proof.lean ====
/-
  A two-by-two, stride-two pooling of a 64 x 512 x 512 image by the pairwise network  pm a b = max (a - b) 0 + max b 0,
  applied as a tournament on each window: to the two entries of the window's upper row, to the two of its lower row,
  and to the two results (Proof/Spec.lean, `poolG`).

  The kernel views the image as 16384 rows of 1024 entries, an even image row followed by the next odd one, and
  writes 16384 rows of 256 entries; grid point t handles rows 1024 t … 1024 t + 1023 in four quarters of 256 rows.
  In a quarter each 128-entry chunk of a row is gathered so that its even entries come first and its odd entries
  last; two chunks' even halves side by side and their odd halves side by side go through the network, giving 128
  column pairs, and four chunks give an image row's 256 pairs; the network of the even and the odd image rows' pairs
  is the output row (Proof/SubGraph.lean, Proof/SubGraphRead.lean, Proof/Pieces.lean). The sixteen blocks tile the
  output array, which is then read back as 64 x 256 x 256: entry (ch, oh, ow) is row 256 ch + oh, column ow, the
  tournament on image rows 2 oh, 2 oh + 1 and columns 2 ow, 2 ow + 1 (Proof/KernelValue.lean).

  The reference lists each window's four entries along a last axis by a reshape, an exchange of two axes and a
  reshape, slices the four entries out, and applies the same network with one more maximum with 0 after each sum. A
  sum of two numbers that are at least 0 is at least 0, so on the extended reals that maximum is the identity and
  the reference is the same tournament (Proof/RefValue.lean). No law used needs the entries to be finite.
-/
import proofs.«123821_g7490422964872_pilotgen1_124_14_alg».proof.Defs
import proofs.«123821_g7490422964872_pilotgen1_124_14_alg».proof.Proof.Gen.Kernel
import proofs.«123821_g7490422964872_pilotgen1_124_14_alg».proof.Proof.Gen.Kernel.Skeleton
import proofs.«123821_g7490422964872_pilotgen1_124_14_alg».proof.Proof.Gen.Kernel.Launch
import proofs.«123821_g7490422964872_pilotgen1_124_14_alg».proof.Proof.Gen.Kernel.Points
import proofs.«123821_g7490422964872_pilotgen1_124_14_alg».proof.Proof.Gen.Kernel.Frame
import proofs.«123821_g7490422964872_pilotgen1_124_14_alg».proof.Proof.Gen.KernelIdeal
import proofs.«123821_g7490422964872_pilotgen1_124_14_alg».proof.Proof.Gen.KernelIdeal.Skeleton
import proofs.«123821_g7490422964872_pilotgen1_124_14_alg».proof.Proof.Gen.KernelIdeal.Launch
import proofs.«123821_g7490422964872_pilotgen1_124_14_alg».proof.Proof.Gen.KernelIdeal.Points
import proofs.«123821_g7490422964872_pilotgen1_124_14_alg».proof.Proof.Gen.KernelIdeal.Frame
import proofs.«123821_g7490422964872_pilotgen1_124_14_alg».proof.Proof.Gen.ReferenceIdeal
import proofs.«123821_g7490422964872_pilotgen1_124_14_alg».proof.Proof.Gen.Pre_finite_inputs
import proofs.«123821_g7490422964872_pilotgen1_124_14_alg».proof.Proof.Gen.ReferenceIdeal.Run
import proofs.«123821_g7490422964872_pilotgen1_124_14_alg».proof.Proof.Gen.ReferenceIdeal.Read
import proofs.«123821_g7490422964872_pilotgen1_124_14_alg».proof.Proof.KernelValue
import proofs.«123821_g7490422964872_pilotgen1_124_14_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs and leaves the image as it was. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves the image as it was: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing of the kernel was rewritten for reading it on the extended reals. -/
theorem preserves : Cert.preserves_Kernel_KernelIdeal := trivial

/-- On the extended reals, from the same image, the kernel's result and the reference's are both the tournament on the
    image's two-by-two windows. -/
theorem algebraic : Cert.algebraic_KernelIdeal_ReferenceIdeal := by
  intro m ρ m' ρ' _ hagree
  refine ⟨fun c => Cert.PoolSpec.poolG (F := Ideal) (m ((c.tc : Thread Cert.KernelIdeal.nD Cert.KernelIdeal.τ).loc Cert.KernelIdeal.main_arg0)),
    Cert.KernelIdeal.Pool.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v25_eq, Cert.ReferenceIdeal.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
